-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 108
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x128, .f32⟩
  | .hbm, ⟨99, _⟩ => ⟨S850000x1, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x1, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S_, .f32⟩
  | 120 => ⟨S50000x128, .f32⟩
  | 121 => ⟨S50000x128, .i1⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x128, .f32⟩
  | 27 => ⟨S850000x1, .f32⟩
  | 28 => ⟨S850000x128, .f32⟩
  | 29 => ⟨S850000x128, .f32⟩
  | 30 => ⟨S_, .f32⟩
  | 31 => ⟨S50000x128, .f32⟩
  | 32 => ⟨S850000x1, .i32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S_, .f32⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_21 : Ref sig .tc := ⟨.hbm, 136, rfl⟩
abbrev main_v91 : Ref sig .tc := ⟨.hbm, 137, rfl⟩
abbrev main_v92 : Ref sig .tc := ⟨.hbm, 138, rfl⟩
abbrev main_c_22 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_23 : Ref sig .tc := ⟨.hbm, 146, rfl⟩
abbrev main_v99 : Ref sig .tc := ⟨.hbm, 147, rfl⟩
abbrev main_v100 : Ref sig .tc := ⟨.hbm, 148, rfl⟩
abbrev main_c_24 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_25 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_26 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v115 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The kernel program's run with its result named.

  The program is twelve segments: stretches of host operations and six kernel launches. Every weakly fair execution from a
  memory with zero counters terminates without a fault, and in the final state every unscoped buffer of a core holds the
  contents the fold of the segments leaves there (`Gen.W12`): in particular the result buffer, and the eight arguments, which no
  segment writes.
-/
import proofs.«164448_j16982300688514_1_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last launch leaves there and the argument arrays as launched. -/
theorem run_result : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KVal

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KBody.lean ====
/-
  What each kernel body stores, read at an index on the extended reals.

  The program has two kinds of body. A product body loads a block of 2000 rows of the left operand and the whole 128 x 128
  right operand and stores their product: entry (p, q) is the sum over k of x(p, k) · w(k, q). A bias body loads a block of
  2000 rows and the one-row bias and stores, at (p, q), the leaky rectifier of x(p, q) + bias(0, q): the value itself when it
  is positive, the slope times the value otherwise.
-/
import proofs.«164448_j16982300688514_1_alg».proof.Proof.Gen.KernelIdeal.Skeleton
import proofs.«164448_j16982300688514_1_alg».proof.Proof.LibMatDot
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Idealize.ShloMosaic.View
open scoped BigOperators

/-- The leaky rectifier on the extended reals, as the kernel spells it: `v` where `0 < v`, the slope `0x3C23D70A` (the
    float nearest 0.01) times `v` elsewhere. -/
def leaky (v : EReal) : EReal :=
  Scalar.select (Ideal.cmp .ogt v (Ideal.ofBits .f32 0x00000000#32)) v (Ideal.ofBits .f32 0x3C23D70A#32 * v)

/-- Region 0's stored value: the block of the left operand times the whole right operand, entry `(p, q)` the sum over `k` of
    `x0 (p, k) · x1 (k, q)` — the two roundings to bf16 are the identity on extended reals and the accumulator is zero. -/
theorem pay0 (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.Lib.matmul_plain_zero_apply (a := 2000) (K := 128) (b := 128) Facts₀.dot_S2000x128_S128x128_S2000x128_1_0_0_1_n_n_wf none
    (truncf .bf16 x0 bitsLt_bf16_f32) (truncf .bf16 x1 bitsLt_bf16_f32) p q

/-- Region 2's stored value: the block of the left operand times the whole right operand, entry `(p, q)` the sum over `k` of
    `x0 (p, k) · x1 (k, q)` — the two roundings to bf16 are the identity on extended reals and the accumulator is zero. -/
theorem pay2 (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  simp only [shapeCast_self]
  exact Cert.Lib.matmul_plain_zero_apply (a := 2000) (K := 128) (b := 128) Facts₀.dot_S2000x128_S128x128_S2000x128_1_0_0_1_n_n_wf none
    (truncf .bf16 x0 bitsLt_bf16_f32) (truncf .bf16 x1 bitsLt_bf16_f32) p q

/-- Region 4's stored value: the block of the left operand times the whole right operand, entry `(p, q)` the sum over `k` of
    `x0 (p, k) · x1 (k, q)` — the two roundings to bf16 are the identity on extended reals and the accumulator is zero. -/
theorem pay4 (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  simp only [shapeCast_self]
  exact Cert.Lib.matmul_plain_zero_apply (a := 2000) (K := 128) (b := 128) Facts₀.dot_S2000x128_S128x128_S2000x128_1_0_0_1_n_n_wf none
    (truncf .bf16 x0 bitsLt_bf16_f32) (truncf .bf16 x1 bitsLt_bf16_f32) p q

/-- Region 1's stored value at `(p, q)`: the leaky rectifier of the block's entry plus the bias row's entry `q`. -/
theorem pay1 (x0 : Vec Ideal S2000x128 .f32) (x1 : Vec Ideal S1x128 .f32) (p : Fin 2000) (q : Fin 128) :
    k1_pay1 (F := Ideal) x0 x1 (ix2 p q) = leaky (x0 (ix2 p q) + x1 (ix2 (0 : Fin 1) q)) := by
  unfold k1_pay1
  simp only [shapeCast_self]
  have hb : broadcastTo S2000x128 x1 Facts₀.broadcasts_S1x128_S2000x128 (ix2 p q) = x1 (ix2 (0 : Fin 1) q) :=
    broadcastTo_apply x1 _ (ix2 p q) (ix2 (0 : Fin 1) q) (fun a => match a with
      | ⟨0, _⟩ => rfl
      | ⟨1, _⟩ => rfl)
  show leaky (x0 (ix2 p q) + broadcastTo S2000x128 x1 Facts₀.broadcasts_S1x128_S2000x128 (ix2 p q)) = _
  rw [hb]

/-- Region 3's stored value at `(p, q)`: the leaky rectifier of the block's entry plus the bias row's entry `q`. -/
theorem pay3 (x0 : Vec Ideal S2000x128 .f32) (x1 : Vec Ideal S1x128 .f32) (p : Fin 2000) (q : Fin 128) :
    k3_pay1 (F := Ideal) x0 x1 (ix2 p q) = leaky (x0 (ix2 p q) + x1 (ix2 (0 : Fin 1) q)) := by
  unfold k3_pay1
  simp only [shapeCast_self]
  have hb : broadcastTo S2000x128 x1 Facts₀.broadcasts_S1x128_S2000x128 (ix2 p q) = x1 (ix2 (0 : Fin 1) q) :=
    broadcastTo_apply x1 _ (ix2 p q) (ix2 (0 : Fin 1) q) (fun a => match a with
      | ⟨0, _⟩ => rfl
      | ⟨1, _⟩ => rfl)
  show leaky (x0 (ix2 p q) + broadcastTo S2000x128 x1 Facts₀.broadcasts_S1x128_S2000x128 (ix2 p q)) = _
  rw [hb]

/-- Region 5's stored value at `(p, q)`: the leaky rectifier of the block's entry plus the bias row's entry `q`. -/
theorem pay5 (x0 : Vec Ideal S2000x128 .f32) (x1 : Vec Ideal S1x128 .f32) (p : Fin 2000) (q : Fin 128) :
    k5_pay1 (F := Ideal) x0 x1 (ix2 p q) = leaky (x0 (ix2 p q) + x1 (ix2 (0 : Fin 1) q)) := by
  unfold k5_pay1
  simp only [shapeCast_self]
  have hb : broadcastTo S2000x128 x1 Facts₀.broadcasts_S1x128_S2000x128 (ix2 p q) = x1 (ix2 (0 : Fin 1) q) :=
    broadcastTo_apply x1 _ (ix2 p q) (ix2 (0 : Fin 1) q) (fun a => match a with
      | ⟨0, _⟩ => rfl
      | ⟨1, _⟩ => rfl)
  show leaky (x0 (ix2 p q) + broadcastTo S2000x128 x1 Facts₀.broadcasts_S1x128_S2000x128 (ix2 p q)) = _
  rw [hb]

end Cert.KernelIdeal.Body

end
-- ==== Proof.KBlocks.lean ====
/-
  From blocks to arrays: what each of the six launches leaves in its output array, on the extended reals.

  Every launch walks 25 grid points; point `t` reads rows `2000 t … 2000 t + 1999` of its first operand and the whole of its
  second (the 128 x 128 weight, or the one-row bias) and writes back the same rows of the output. So the block a point
  writes is the restriction of ONE function of the whole operand arrays — the matrix product, or the rectified sum with the
  bias row — and since the 25 blocks fill the 50000 rows, the output array is that function.
-/
import proofs.«164448_j16982300688514_1_alg».proof.Proof.Gen.KernelIdeal.Frame
import proofs.«164448_j16982300688514_1_alg».proof.Proof.KBody
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

/-- The whole matrix product `x · w` of a 50000 x 128 array with a 128 x 128 one, entry by entry. -/
def prod (x : S50000x128.Idx → EReal) (w : S128x128.Idx → EReal) : S50000x128.Idx → EReal :=
  fun i => ∑ k : Fin 128, x (ix2 (i 0) k) * w (ix2 k (i 1))

/-- The rectified sum of a 50000 x 128 array with a bias row, entry by entry. -/
def act (x : S50000x128.Idx → EReal) (b : S1x128.Idx → EReal) : S50000x128.Idx → EReal :=
  fun i => leaky (x i + b (ix2 (0 : Fin 1) (i 1)))

variable (V : (c : Dev nD) → (b : Ref sig .tc) → Buf (Elt Ideal) ((c : Thread nD τ).loc b))

/-! ## Region 0: a product -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx_onto0 : ∀ q0 : Fin 25, ∃ t : Fin cfg0.N, win0_2.index t = ![q0.val, 0] :=
  (by decide +kernel : ∀ q0 : Fin 25, ∃ t : Fin grid0.N, win0_2.index t = ![q0.val, 0])

/-- An index of the array lies in point `t`'s output block iff each coordinate lies in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `r` of the array lies in the block of point `r / 2000`: the 25 blocks of 2000 rows fill the 50000 rows. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- What point `t` writes back is block `t` of the whole product of the two arrays the region finds. -/
theorem flushed0 (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = prod (V c main_arg0) (V c main_arg2) (((cfg0.win 2).blk t).view.emb (ix2 p q))
  refine (pay0 (iblk0 V c 0 t) (iblk0 V c 1 t) p q).trans ?_
  unfold prod
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- The output array after region 0 is the whole product. -/
theorem final0 (c : Dev nD) : (dat0 (F := Ideal) V c).arrAt 2 cfg0.N = prod (V c main_arg0) (V c main_arg2) :=
  (dat0 V c).arrAt_eq_of_cover 2 _ (fun t _ => flushed0 V c t) cover0

/-! ## Region 1: bias and rectifier -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem idx_onto1 : ∀ q0 : Fin 25, ∃ t : Fin cfg1.N, win1_2.index t = ![q0.val, 0] :=
  (by decide +kernel : ∀ q0 : Fin 25, ∃ t : Fin grid1.N, win1_2.index t = ![q0.val, 0])

/-- An index of the array lies in point `t`'s output block iff each coordinate lies in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row `r` of the array lies in the block of point `r / 2000`: the 25 blocks of 2000 rows fill the 50000 rows. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- What point `t` writes back is block `t` of the rectified sum of the array and the bias row the region finds. -/
theorem flushed1 (c : Dev nD) (t : Fin cfg1.N) :
    (dat1 (F := Ideal) V c).flushed 2 t = ((cfg1.win 2).blk t).view.read (Elt Ideal) (act (V c main_v45) (V c main_v46)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts1 t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q) = act (V c main_v45) (V c main_v46) (((cfg1.win 2).blk t).view.emb (ix2 p q))
  refine (pay1 (iblk1 V c 0 t) (iblk1 V c 1 t) p q).trans ?_
  unfold act
  have h0 : iblk1 V c 0 t (ix2 p q) = V c main_v45 (((cfg1.win 2).blk t).view.emb (ix2 p q)) := by
    show V c main_v45 (((cfg1.win 0).blk t).view.emb (ix2 p q)) = _
    refine congrArg _ (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : iblk1 V c 1 t (ix2 (0 : Fin 1) q) = V c main_v46 (ix2 (0 : Fin 1) ((((cfg1.win 2).blk t).view.emb (ix2 p q)) 1)) := by
    show V c main_v46 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- The output array after region 1 is the rectified sum, entry by entry. -/
theorem final1 (c : Dev nD) : (dat1 (F := Ideal) V c).arrAt 2 cfg1.N = act (V c main_v45) (V c main_v46) :=
  (dat1 V c).arrAt_eq_of_cover 2 _ (fun t _ => flushed1 V c t) cover1

/-! ## Region 2: a product -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem idx_onto2 : ∀ q0 : Fin 25, ∃ t : Fin cfg2.N, win2_2.index t = ![q0.val, 0] :=
  (by decide +kernel : ∀ q0 : Fin 25, ∃ t : Fin grid2.N, win2_2.index t = ![q0.val, 0])

/-- An index of the array lies in point `t`'s output block iff each coordinate lies in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Row `r` of the array lies in the block of point `r / 2000`: the 25 blocks of 2000 rows fill the 50000 rows. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- What point `t` writes back is block `t` of the whole product of the two arrays the region finds. -/
theorem flushed2 (c : Dev nD) (t : Fin cfg2.N) :
    (dat2 (F := Ideal) V c).flushed 2 t = ((cfg2.win 2).blk t).view.read (Elt Ideal) (prod (V c main_v47) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts2 t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q) = prod (V c main_v47) (V c main_arg4) (((cfg2.win 2).blk t).view.emb (ix2 p q))
  refine (pay2 (iblk2 V c 0 t) (iblk2 V c 1 t) p q).trans ?_
  unfold prod
  refine Finset.sum_congr rfl fun k _ => ?_
  have h0 : iblk2 V c 0 t (ix2 p k) = V c main_v47 (ix2 ((((cfg2.win 2).blk t).view.emb (ix2 p q)) 0) k) := by
    show V c main_v47 (((cfg2.win 0).blk t).view.emb (ix2 p k)) = _
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : iblk2 V c 1 t (ix2 k q) = V c main_arg4 (ix2 k ((((cfg2.win 2).blk t).view.emb (ix2 p q)) 1)) := by
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-- The output array after region 2 is the whole product. -/
theorem final2 (c : Dev nD) : (dat2 (F := Ideal) V c).arrAt 2 cfg2.N = prod (V c main_v47) (V c main_arg4) :=
  (dat2 V c).arrAt_eq_of_cover 2 _ (fun t _ => flushed2 V c t) cover2

/-! ## Region 3: bias and rectifier -/

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem idx_onto3 : ∀ q0 : Fin 25, ∃ t : Fin cfg3.N, win3_2.index t = ![q0.val, 0] :=
  (by decide +kernel : ∀ q0 : Fin 25, ∃ t : Fin grid3.N, win3_2.index t = ![q0.val, 0])

/-- An index of the array lies in point `t`'s output block iff each coordinate lies in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- Row `r` of the array lies in the block of point `r / 2000`: the 25 blocks of 2000 rows fill the 50000 rows. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- What point `t` writes back is block `t` of the rectified sum of the array and the bias row the region finds. -/
theorem flushed3 (c : Dev nD) (t : Fin cfg3.N) :
    (dat3 (F := Ideal) V c).flushed 2 t = ((cfg3.win 2).blk t).view.read (Elt Ideal) (act (V c main_v61) (V c main_v62)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts3 t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q) = act (V c main_v61) (V c main_v62) (((cfg3.win 2).blk t).view.emb (ix2 p q))
  refine (pay3 (iblk3 V c 0 t) (iblk3 V c 1 t) p q).trans ?_
  unfold act
  have h0 : iblk3 V c 0 t (ix2 p q) = V c main_v61 (((cfg3.win 2).blk t).view.emb (ix2 p q)) := by
    show V c main_v61 (((cfg3.win 0).blk t).view.emb (ix2 p q)) = _
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : iblk3 V c 1 t (ix2 (0 : Fin 1) q) = V c main_v62 (ix2 (0 : Fin 1) ((((cfg3.win 2).blk t).view.emb (ix2 p q)) 1)) := by
    show V c main_v62 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]

/-- The output array after region 3 is the rectified sum, entry by entry. -/
theorem final3 (c : Dev nD) : (dat3 (F := Ideal) V c).arrAt 2 cfg3.N = act (V c main_v61) (V c main_v62) :=
  (dat3 V c).arrAt_eq_of_cover 2 _ (fun t _ => flushed3 V c t) cover3

/-! ## Region 4: a product -/

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem idx_onto4 : ∀ q0 : Fin 25, ∃ t : Fin cfg4.N, win4_2.index t = ![q0.val, 0] :=
  (by decide +kernel : ∀ q0 : Fin 25, ∃ t : Fin grid4.N, win4_2.index t = ![q0.val, 0])

/-- An index of the array lies in point `t`'s output block iff each coordinate lies in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v64).slice (win4_2.rect t)).set ↔ _
  rw [View.set_slice_whole, Rect.mem_set_unit]
  exact Iff.rfl

/-- Row `r` of the array lies in the block of point `r / 2000`: the 25 blocks of 2000 rows fill the 50000 rows. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- What point `t` writes back is block `t` of the whole product of the two arrays the region finds. -/
theorem flushed4 (c : Dev nD) (t : Fin cfg4.N) :
    (dat4 (F := Ideal) V c).flushed 2 t = ((cfg4.win 2).blk t).view.read (Elt Ideal) (prod (V c main_v63) (V c main_arg6)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5⟩ := idx_facts4 t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q) = prod (V c main_v63) (V c main_arg6) (((cfg4.win 2).blk t).view.emb (ix2 p q))
  refine (pay4 (iblk4 V c 0 t) (iblk4 V c 1 t) p q).trans ?_
  unfold prod
  refine Finset.sum_congr rfl fun k _ => ?_
  have h0 : iblk4 V c 0 t (ix2 p k) = V c main_v63 (ix2 ((((cfg4.win 2).blk t).view.emb (ix2 p q)) 0) k) := by
    show V c main_v63 (((cfg4.win 0).blk t).view.emb (ix2 p k)) = _
    refine congrArg _ (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have h1 : iblk4 V c 1 t (ix2 k q) = V c main_arg6 (ix2 k ((((cfg4.win 2).blk t).view.emb (ix2 p q)) 1)) := by
    show V c main_arg6 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [h0, h1]

/-- The output array after region 4 is the whole product. -/
theorem final4 (c : Dev nD) : (dat4 (F := Ideal) V c).arrAt 2 cfg4.N = prod (V c main_v63) (V c main_arg6) :=
  (dat4 V c).arrAt_eq_of_cover 2 _ (fun t _ => flushed4 V c t) cover4

/-! ## Region 5: bias and rectifier -/

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem idx_onto5 : ∀ q0 : Fin 25, ∃ t : Fin cfg5.N, win5_2.index t = ![q0.val, 0] :=
  (by decide +kernel : ∀ q0 : Fin 25, ∃ t : Fin grid5.N, win5_2.index t = ![q0.val, 0])

/-- An index of the array lies in point `t`'s output block iff each coordinate lies in the block's range on its axis. -/
theorem mem_blk5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v79).slice (win5_2.rect t)).set ↔ _
  rw [View.set_slice_whole, Rect.mem_set_unit]
  exact Iff.rfl

/-- Row `r` of the array lies in the block of point `r / 2000`: the 25 blocks of 2000 rows fill the 50000 rows. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- What point `t` writes back is block `t` of the rectified sum of the array and the bias row the region finds. -/
theorem flushed5 (c : Dev nD) (t : Fin cfg5.N) :
    (dat5 (F := Ideal) V c).flushed 2 t = ((cfg5.win 2).blk t).view.read (Elt Ideal) (act (V c main_v77) (V c main_v78)) := by
  show (cfg5.win 2).cut (grid5.coords t) ((dat5 V c).after 2 t) = _
  rw [after5_2]
  unfold out5_2
  rw [View.canon_unit_zero hz]
  simp only [View.ld_unit_zero (S := S2000x128) hz, View.ld_unit_zero (S := S1x128) hz]
  obtain ⟨e0, e1, e2, e3, e4, e5⟩ := idx_facts5 t
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (ix2 p q) = act (V c main_v77) (V c main_v78) (((cfg5.win 2).blk t).view.emb (ix2 p q))
  refine (pay5 (iblk5 V c 0 t) (iblk5 V c 1 t) p q).trans ?_
  unfold act
  have h0 : iblk5 V c 0 t (ix2 p q) = V c main_v77 (((cfg5.win 2).blk t).view.emb (ix2 p q)) := by
    show V c main_v77 (((cfg5.win 0).blk t).view.emb (ix2 p q)) = _
    refine congrArg _ (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  have h1 : iblk5 V c 1 t (ix2 (0 : Fin 1) q) = V c main_v78 (ix2 (0 : Fin 1) ((((cfg5.win 2).blk t).view.emb (ix2 p q)) 1)) := by
    show V c main_v78 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [h0, h1]

/-- The output array after region 5 is the rectified sum, entry by entry. -/
theorem final5 (c : Dev nD) : (dat5 (F := Ideal) V c).arrAt 2 cfg5.N = act (V c main_v77) (V c main_v78) :=
  (dat5 V c).arrAt_eq_of_cover 2 _ (fun t _ => flushed5 V c t) cover5

end Cert.KernelIdeal.Blocks

end
-- ==== Proof.KHost.lean ====
/-
  The host side of the kernel program, as terms.

  Around its six launches the program computes, once, the edge lists with self loops appended (`srcK`, `dstK`), the degree of
  every node, its inverse square root where the degree is positive (`disK`) and the symmetric edge norm (`normK`); and, once per
  layer, the aggregation `aggK`: the rows of the layer's product looked up at the edges' sources, scaled by the edge norm, and
  summed into the edges' targets. A bias vector reaches its launch as one row (`rowK`). Each is written here exactly as the
  program's operations compose, with nothing evaluated.
-/
import proofs.«164448_j16982300688514_1_alg».proof.Proof.Gen.KernelIdeal

noncomputable section

namespace Cert.KernelIdeal.Host

open Cert.KernelIdeal Cert.KernelIdeal.Facts₀ Idealize.ShloMosaic

variable {F : FTy → Type} [FloatOps F]

/-- The edges' sources: row 0 of the edge array, then the nodes themselves (the self loops). -/
def srcK (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The edges' targets: row 1 of the edge array, then the nodes themselves. -/
def dstK (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- An index vector made ready for a lookup: a negative index counted from the end, then laid out as one column. -/
def wrapK (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Every node's degree: ones summed into the edges' targets. -/
def degK (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (broadcastInDim S850000x1 ![0] bcast_S850000_S850000x1_0 (dstK e))
    (broadcastInDim S850000 ![] bcast_S_S850000 (constant (F := F) S_ .f32 0x3F800000#32))

/-- The degree's inverse square root (of the degree raised to at least one), and zero where the degree is not positive. -/
def disK (e : (⟨S2x800000, .i32⟩ : BufTy).Contents (Elt F)) : (⟨S50000, .f32⟩ : BufTy).Contents (Elt F) :=
  select (cmpf .ogt (degK e) (broadcastInDim S50000 ![] bcast_S_S50000 (constant (F := F) S_ .f32 0x00000000#32)))
    (Host.rsqrt (maximumf (degK e) (broadcastInDim S50000 ![] bcast_S_S50000 (constant (F := F) S_ .f32 0x3F800000#32))))
    (broadcastInDim S50000 ![] bcast_S_S50000 (id (constant (F := F) S_ .f32 0x00000000#32)))

/-- The symmetric norm of every edge: the source's factor times the target's. -/
def normK (e : (⟨S2x800000, .i32⟩ : BufTy).Contents (Elt F)) : (⟨S850000, .f32⟩ : BufTy).Contents (Elt F) :=
  mulf (Host.gather gather_S50000_S850000x1_S850000_n_0_n_n_0_1_1 (disK e) (wrapK (srcK e)))
    (Host.gather gather_S50000_S850000x1_S850000_n_0_n_n_0_1_1 (disK e) (wrapK (dstK e)))

/-- One layer's aggregation of a node array `h`: rows of `h` at the sources `s`, each scaled by its edge's norm `n`, summed into
    the targets `d`. -/
def aggK (s d : (⟨S850000, .i32⟩ : BufTy).Contents (Elt F)) (n : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 d)
    (mulf (Host.gather gather_S50000x128_S850000x1_S850000x128_1_0_n_n_0_1_1128 h (wrapK s))
      (broadcastInDim S850000x128 ![0, 1] bcast_S850000x1_S850000x128_0_1 (broadcastInDim S850000x1 ![0] bcast_S850000_S850000x1_0 n)))

/-- A bias vector as the one row its launch reads. -/
def rowK (b : (⟨S128, .f32⟩ : BufTy).Contents (Elt F)) : (⟨S1x128, .f32⟩ : BufTy).Contents (Elt F) :=
  shapeCast S1x128 b shapeCasts_S128_S1x128

end Cert.KernelIdeal.Host

end
-- ==== Proof.KFoldA.lean ====
/-
  The kernel program's launches and the host operations between them, read at the segment boundaries.

  Each launch's output array is the product, or the rectified sum, of the two arrays it finds when it is entered; the host
  operations before a rectifier launch compute the aggregation of the previous product over the edges and lay the bias out
  as one row. One layer of the program is these three steps; the program is three layers.
-/
import proofs.«164448_j16982300688514_1_alg».proof.Proof.Gen.KernelIdeal.Frame
import proofs.«164448_j16982300688514_1_alg».proof.Proof.KBlocks
import proofs.«164448_j16982300688514_1_alg».proof.Proof.KHost
import Idealize.ShloMosaic.Lib.StableHlo.Run

set_option maxRecDepth 16384
set_option maxHeartbeats 2000000

noncomputable section

namespace Cert.KernelIdeal.Fold

open Cert.KernelIdeal Cert.KernelIdeal.Gen Cert.KernelIdeal.Host Cert.KernelIdeal.Blocks
open Idealize.ShloMosaic Idealize.ShloMosaic.TcCoe Idealize.SL.Sem Idealize.ShloMosaic.StableHlo

/-- One layer of the kernel program on the extended reals: the product with the weight, the aggregation over the edges of the
    edge array `e`, the bias row and the rectifier. -/
def layerK (e : (⟨S2x800000, .i32⟩ : BufTy).Contents (Elt Ideal)) (h : S50000x128.Idx → EReal) (W : S128x128.Idx → EReal)
    (b : (⟨S128, .f32⟩ : BufTy).Contents (Elt Ideal)) : S50000x128.Idx → EReal :=
  act (aggK (F := Ideal) (srcK e) (dstK e) (normK e) (prod h W)) (rowK b)

/-- The three layers, one after the other. -/
def kernelOut (x : S50000x128.Idx → EReal) (e : (⟨S2x800000, .i32⟩ : BufTy).Contents (Elt Ideal))
    (W1 : S128x128.Idx → EReal) (b1 : (⟨S128, .f32⟩ : BufTy).Contents (Elt Ideal))
    (W2 : S128x128.Idx → EReal) (b2 : (⟨S128, .f32⟩ : BufTy).Contents (Elt Ideal))
    (W3 : S128x128.Idx → EReal) (b3 : (⟨S128, .f32⟩ : BufTy).Contents (Elt Ideal)) : S50000x128.Idx → EReal :=
  layerK e (layerK e (layerK e x W1 b1) W2 b2) W3 b3

variable (m : (ℓ : Loc nD τ sig) → Buf (Elt Ideal) ℓ) (ρ : Dev nD → PrngReg) (c : Dev nD)

/-! ## The launches' outputs at the segment boundaries -/

theorem reg0 : W4 m ρ c (Proc.devRef .tc main_v32) = prod (W3 m ρ c (Proc.devRef .tc main_arg0)) (W3 m ρ c (Proc.devRef .tc main_arg2)) :=
  (W4_arr m ρ c 2).trans (final0 (V3 m ρ) c)
theorem reg1 : W6 m ρ c (Proc.devRef .tc main_v47) = act (W5 m ρ c (Proc.devRef .tc main_v45)) (W5 m ρ c (Proc.devRef .tc main_v46)) :=
  (W6_arr m ρ c 2).trans (final1 (V5 m ρ) c)
theorem reg2 : W7 m ρ c (Proc.devRef .tc main_v48) = prod (W6 m ρ c (Proc.devRef .tc main_v47)) (W6 m ρ c (Proc.devRef .tc main_arg4)) :=
  (W7_arr m ρ c 2).trans (final2 (V6 m ρ) c)
theorem reg3 : W9 m ρ c (Proc.devRef .tc main_v63) = act (W8 m ρ c (Proc.devRef .tc main_v61)) (W8 m ρ c (Proc.devRef .tc main_v62)) :=
  (W9_arr m ρ c 2).trans (final3 (V8 m ρ) c)
theorem reg4 : W10 m ρ c (Proc.devRef .tc main_v64) = prod (W9 m ρ c (Proc.devRef .tc main_v63)) (W9 m ρ c (Proc.devRef .tc main_arg6)) :=
  (W10_arr m ρ c 2).trans (final4 (V9 m ρ) c)
theorem reg5 : W12 m ρ c (Proc.devRef .tc main_v79) = act (W11 m ρ c (Proc.devRef .tc main_v77)) (W11 m ρ c (Proc.devRef .tc main_v78)) :=
  (W12_arr m ρ c 2).trans (final5 (V11 m ρ) c)

/-! ## The host operations between the launches -/

theorem ev1_agg : W5 m ρ c (Proc.devRef .tc main_v45) = aggK (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  after_results_simp
  rfl

theorem ev1_row : W5 m ρ c (Proc.devRef .tc main_v46) = rowK (W4 m ρ c (Proc.devRef .tc main_arg3)) := by
  show StableHlo.after hostOps1 (W4 m ρ c) (Proc.devRef .tc main_v46) = _
  after_results_simp
  rfl

theorem ev3_agg : W8 m ρ c (Proc.devRef .tc main_v61) = aggK (W7 m ρ c (Proc.devRef .tc main_v3)) (W7 m ρ c (Proc.devRef .tc main_v6)) (W7 m ρ c (Proc.devRef .tc main_v31)) (W7 m ρ c (Proc.devRef .tc main_v48)) := by
  show StableHlo.after hostOps3 (W7 m ρ c) (Proc.devRef .tc main_v61) = _
  after_results_simp
  rfl

theorem ev3_row : W8 m ρ c (Proc.devRef .tc main_v62) = rowK (W7 m ρ c (Proc.devRef .tc main_arg5)) := by
  show StableHlo.after hostOps3 (W7 m ρ c) (Proc.devRef .tc main_v62) = _
  after_results_simp
  rfl

theorem ev5_agg : W11 m ρ c (Proc.devRef .tc main_v77) = aggK (W10 m ρ c (Proc.devRef .tc main_v3)) (W10 m ρ c (Proc.devRef .tc main_v6)) (W10 m ρ c (Proc.devRef .tc main_v31)) (W10 m ρ c (Proc.devRef .tc main_v64)) := by
  show StableHlo.after hostOps5 (W10 m ρ c) (Proc.devRef .tc main_v77) = _
  after_results_simp
  rfl

theorem ev5_row : W11 m ρ c (Proc.devRef .tc main_v78) = rowK (W10 m ρ c (Proc.devRef .tc main_arg7)) := by
  show StableHlo.after hostOps5 (W10 m ρ c) (Proc.devRef .tc main_v78) = _
  after_results_simp
  rfl

end Cert.KernelIdeal.Fold

end
-- ==== Proof.KFoldB.lean ====
/-
  The edge data of the kernel program.

  The opening host operations make, from the edge array alone, the edges' sources and targets with the self loops appended,
  every node's degree and its inverse square root, and the symmetric edge norm. Read one stretch at a time over any contents
  of the buffers, then composed: the three buffers that hold the sources, the targets and the norm when the first launch is
  entered are those terms of the edge array.
-/
import proofs.«164448_j16982300688514_1_alg».proof.Proof.Gen.KernelIdeal.Frame
import proofs.«164448_j16982300688514_1_alg».proof.Proof.KHost
import Idealize.ShloMosaic.Lib.StableHlo.Run
import Idealize.ShloMosaic.PureOps.Ideal

set_option maxRecDepth 16384
set_option maxHeartbeats 2000000

noncomputable section

namespace Cert.KernelIdeal.Fold

open Cert.KernelIdeal Cert.KernelIdeal.Gen Cert.KernelIdeal.Host
open Idealize.ShloMosaic Idealize.ShloMosaic.TcCoe Idealize.SL.Sem Idealize.ShloMosaic.StableHlo

/-! ## One stretch at a time, over any buffer contents -/

section Stretches

variable (V : Valuation τ sig (Elt Ideal))

attribute [local irreducible] Host.gather Host.scatterAdd Host.rsqrt concatenate extractStridedSlice iotaInDim in
theorem h0_src : StableHlo.after (hostOps0 (F := Ideal)) V (Proc.devRef .tc main_v3) = srcK (F := Ideal) (V (Proc.devRef .tc main_arg1)) := by
  after_results_simp <;> rfl

attribute [local irreducible] Host.gather Host.scatterAdd Host.rsqrt concatenate extractStridedSlice iotaInDim in
theorem h0_dst : StableHlo.after (hostOps0 (F := Ideal)) V (Proc.devRef .tc main_v6) = dstK (F := Ideal) (V (Proc.devRef .tc main_arg1)) := by
  after_results_simp <;> rfl

attribute [local irreducible] Host.gather Host.scatterAdd Host.rsqrt concatenate extractStridedSlice iotaInDim in
theorem h0_pos : StableHlo.after (hostOps0 (F := Ideal)) V (Proc.devRef .tc main_v12) = cmpf .ogt (degK (F := Ideal) (V (Proc.devRef .tc main_arg1))) (broadcastInDim S50000 ![] Facts₀.bcast_S_S50000 (constant (F := Ideal) S_ .f32 0x00000000#32)) := by
  after_results_simp <;> rfl

attribute [local irreducible] Host.gather Host.scatterAdd Host.rsqrt concatenate extractStridedSlice iotaInDim in
theorem h0_rsq : StableHlo.after (hostOps0 (F := Ideal)) V (Proc.devRef .tc main_v15) = Host.rsqrt (maximumf (degK (F := Ideal) (V (Proc.devRef .tc main_arg1))) (broadcastInDim S50000 ![] Facts₀.bcast_S_S50000 (constant (F := Ideal) S_ .f32 0x3F800000#32))) := by
  after_results_simp <;> rfl

attribute [local irreducible] Host.gather Host.scatterAdd Host.rsqrt concatenate extractStridedSlice iotaInDim in
theorem h0_zero : StableHlo.after (hostOps0 (F := Ideal)) V (Proc.devRef .tc main_cst_3) = constant (F := Ideal) S_ .f32 0x00000000#32 := by
  after_results_simp <;> rfl

attribute [local irreducible] Host.gather Host.scatterAdd Host.rsqrt concatenate extractStridedSlice iotaInDim in
theorem h1_dis : StableHlo.after (hostOps0_1 (F := Ideal)) V (Proc.devRef .tc main_v16)
    = select (V (Proc.devRef .tc main_v12)) (V (Proc.devRef .tc main_v15)) (broadcastInDim S50000 ![] Facts₀.bcast_S_S50000 (id (V (Proc.devRef .tc main_cst_3)))) := by
  after_results_simp <;> rfl

attribute [local irreducible] Host.gather Host.scatterAdd Host.rsqrt concatenate extractStridedSlice iotaInDim in
theorem h2_norm : StableHlo.after (hostOps0_2 (F := Ideal)) V (Proc.devRef .tc main_v31)
    = (mulf (Host.gather gather_S50000_S850000x1_S850000_n_0_n_n_0_1_1 (V (Proc.devRef .tc main_v16)) (wrapK (F := Ideal) (V (Proc.devRef .tc main_v3))))
        (Host.gather gather_S50000_S850000x1_S850000_n_0_n_n_0_1_1 (V (Proc.devRef .tc main_v16)) (wrapK (F := Ideal) (V (Proc.devRef .tc main_v6)))) : FVec Ideal S850000 .f32) := by
  after_results_simp <;> rfl

end Stretches

/-! ## A stretch leaves a buffer it does not write -/

theorem nw_hostOps0_1_main_v3 (W : Valuation τ sig (Elt Ideal)) :
    StableHlo.after (hostOps0_1 (F := Ideal)) W (Proc.devRef .tc main_v3) = W (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_v6 (W : Valuation τ sig (Elt Ideal)) :
    StableHlo.after (hostOps0_1 (F := Ideal)) W (Proc.devRef .tc main_v6) = W (Proc.devRef .tc main_v6) :=
  StableHlo.after_of_forall_not_mem (b := Proc.devRef .tc main_v6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_v3 (W : Valuation τ sig (Elt Ideal)) :
    StableHlo.after (hostOps0_2 (F := Ideal)) W (Proc.devRef .tc main_v3) = W (Proc.devRef .tc main_v3) :=
  StableHlo.after_of_forall_not_mem (b := Proc.devRef .tc main_v3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_v6 (W : Valuation τ sig (Elt Ideal)) :
    StableHlo.after (hostOps0_2 (F := Ideal)) W (Proc.devRef .tc main_v6) = W (Proc.devRef .tc main_v6) :=
  StableHlo.after_of_forall_not_mem (b := Proc.devRef .tc main_v6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Composed: the edge data when the first launch is entered -/

variable (m : (ℓ : Loc nD τ sig) → Buf (Elt Ideal) ℓ) (ρ : Dev nD → PrngReg) (c : Dev nD)

theorem ev_src : W3 m ρ c (Proc.devRef .tc main_v3) = srcK (m ((c : Thread nD τ).loc main_arg1)) :=
  (nw_hostOps0_2_main_v3 (W2 m ρ c)).trans ((nw_hostOps0_1_main_v3 (W1 m ρ c)).trans (h0_src (W0 m ρ c)))

theorem ev_dst : W3 m ρ c (Proc.devRef .tc main_v6) = dstK (m ((c : Thread nD τ).loc main_arg1)) :=
  (nw_hostOps0_2_main_v6 (W2 m ρ c)).trans ((nw_hostOps0_1_main_v6 (W1 m ρ c)).trans (h0_dst (W0 m ρ c)))

theorem ev_dis : W2 m ρ c (Proc.devRef .tc main_v16) = disK (m ((c : Thread nD τ).loc main_arg1)) := by
  show StableHlo.after hostOps0_1 (W1 m ρ c) (Proc.devRef .tc main_v16) = _
  rw [h1_dis]
  show select (StableHlo.after hostOps0 (W0 m ρ c) (Proc.devRef .tc main_v12)) (StableHlo.after hostOps0 (W0 m ρ c) (Proc.devRef .tc main_v15))
    (broadcastInDim S50000 ![] Facts₀.bcast_S_S50000 (id (StableHlo.after hostOps0 (W0 m ρ c) (Proc.devRef .tc main_cst_3)))) = _
  rw [h0_pos, h0_rsq, h0_zero]
  rfl

theorem ev_norm : W3 m ρ c (Proc.devRef .tc main_v31) = normK (m ((c : Thread nD τ).loc main_arg1)) := by
  show StableHlo.after hostOps0_2 (W2 m ρ c) (Proc.devRef .tc main_v31) = _
  rw [h2_norm]
  rw [ev_dis m ρ c]
  rw [show W2 m ρ c (Proc.devRef .tc main_v3) = srcK (m ((c : Thread nD τ).loc main_arg1)) from (nw_hostOps0_1_main_v3 (W1 m ρ c)).trans (h0_src (W0 m ρ c)),
    show W2 m ρ c (Proc.devRef .tc main_v6) = dstK (m ((c : Thread nD τ).loc main_arg1)) from (nw_hostOps0_1_main_v6 (W1 m ρ c)).trans (h0_dst (W0 m ρ c))]
  rfl

end Cert.KernelIdeal.Fold

end
-- ==== Proof.KKeep.lean ====
/-
  Buffers that keep their contents across the segments.

  The arguments are written by no host operation and are the output of no launch; the edge index vectors and the edge norm
  are computed once, before the first launch, and only read afterwards. So at every later segment boundary each of them still
  holds what it held: an argument its launch contents, the edge data what the opening host operations left.
-/
import proofs.«164448_j16982300688514_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

/-! ## A stretch of host operations leaves a buffer it does not write -/

theorem nw_hostOps0_main_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg0 (W : Valuation τ sig (Elt F)) :
    StableHlo.after (hostOps0_1 (F := F)) W (Proc.devRef .tc main_arg0) = W (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg0 (W : Valuation τ sig (Elt F)) :
    StableHlo.after (hostOps0_2 (F := F)) W (Proc.devRef .tc main_arg0) = W (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg2 (W : Valuation τ sig (Elt F)) :
    StableHlo.after (hostOps0_1 (F := F)) W (Proc.devRef .tc main_arg2) = W (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg2 (W : Valuation τ sig (Elt F)) :
    StableHlo.after (hostOps0_2 (F := F)) W (Proc.devRef .tc main_arg2) = W (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg3 (W : Valuation τ sig (Elt F)) :
    StableHlo.after (hostOps0_1 (F := F)) W (Proc.devRef .tc main_arg3) = W (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg3 (W : Valuation τ sig (Elt F)) :
    StableHlo.after (hostOps0_2 (F := F)) W (Proc.devRef .tc main_arg3) = W (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg4 (W : Valuation τ sig (Elt F)) :
    StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg4 (W : Valuation τ sig (Elt F)) :
    StableHlo.after (hostOps0_1 (F := F)) W (Proc.devRef .tc main_arg4) = W (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg4 (W : Valuation τ sig (Elt F)) :
    StableHlo.after (hostOps0_2 (F := F)) W (Proc.devRef .tc main_arg4) = W (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_arg4 (W : Valuation τ sig (Elt F)) :
    StableHlo.after (hostOps1 (F := F)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg5 (W : Valuation τ sig (Elt F)) :
    StableHlo.after (hostOps0 (F := F)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg5 (W : Valuation τ sig (Elt F)) :
    StableHlo.after (hostOps0_1 (F := F)) W (Proc.devRef .tc main_arg5) = W (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg5 (W : Valuation τ sig (Elt F)) :
    StableHlo.after (hostOps0_2 (F := F)) W (Proc.devRef .tc main_arg5) = W (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_arg5 (W : Valuation τ sig (Elt F)) :
    StableHlo.after (hostOps1 (F := F)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg6 (W : Valuation τ sig (Elt F)) :
    StableHlo.after (hostOps0 (F := F)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg6 (W : Valuation τ sig (Elt F)) :
    StableHlo.after (hostOps0_1 (F := F)) W (Proc.devRef .tc main_arg6) = W (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg6 (W : Valuation τ sig (Elt F)) :
    StableHlo.after (hostOps0_2 (F := F)) W (Proc.devRef .tc main_arg6) = W (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_arg6 (W : Valuation τ sig (Elt F)) :
    StableHlo.after (hostOps1 (F := F)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps3_main_arg6 (W : Valuation τ sig (Elt F)) :
    StableHlo.after (hostOps3 (F := F)) W (Proc.devRef .tc main_arg6) = W (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_main_arg7 (W : Valuation τ sig (Elt F)) :
    StableHlo.after (hostOps0 (F := F)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_1_main_arg7 (W : Valuation τ sig (Elt F)) :
    StableHlo.after (hostOps0_1 (F := F)) W (Proc.devRef .tc main_arg7) = W (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps0_2_main_arg7 (W : Valuation τ sig (Elt F)) :
    StableHlo.after (hostOps0_2 (F := F)) W (Proc.devRef .tc main_arg7) = W (Proc.devRef .tc main_arg7) :=
  StableHlo.after_of_forall_not_mem (b := Proc.devRef .tc main_arg7) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_arg7 (W : Valuation τ sig (Elt F)) :
    StableHlo.after (hostOps1 (F := F)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps3_main_arg7 (W : Valuation τ sig (Elt F)) :
    StableHlo.after (hostOps3 (F := F)) W (Proc.devRef .tc main_arg7) = W (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_v3 (W : Valuation τ sig (Elt F)) :
    StableHlo.after (hostOps1 (F := F)) W (Proc.devRef .tc main_v3) = W (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps3_main_v3 (W : Valuation τ sig (Elt F)) :
    StableHlo.after (hostOps3 (F := F)) W (Proc.devRef .tc main_v3) = W (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_v6 (W : Valuation τ sig (Elt F)) :
    StableHlo.after (hostOps1 (F := F)) W (Proc.devRef .tc main_v6) = W (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps3_main_v6 (W : Valuation τ sig (Elt F)) :
    StableHlo.after (hostOps3 (F := F)) W (Proc.devRef .tc main_v6) = W (Proc.devRef .tc main_v6) :=
  StableHlo.after_of_forall_not_mem (b := Proc.devRef .tc main_v6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps1_main_v31 (W : Valuation τ sig (Elt F)) :
    StableHlo.after (hostOps1 (F := F)) W (Proc.devRef .tc main_v31) = W (Proc.devRef .tc main_v31) :=
  StableHlo.after_of_forall_not_mem (b := Proc.devRef .tc main_v31) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem nw_hostOps3_main_v31 (W : Valuation τ sig (Elt F)) :
    StableHlo.after (hostOps3 (F := F)) W (Proc.devRef .tc main_v31) = W (Proc.devRef .tc main_v31) :=
  StableHlo.after_of_forall_not_mem (b := Proc.devRef .tc main_v31) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Through the segments -/

variable (m : (ℓ : Loc nD τ sig) → Buf (Elt F) ℓ) (ρ : Dev nD → PrngReg)

theorem at3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := nw_hostOps0_2_main_arg0 (W2 m ρ c)
    _ = W1 m ρ c (Proc.devRef .tc main_arg0) := nw_hostOps0_1_main_arg0 (W1 m ρ c)
    _ = W0 m ρ c (Proc.devRef .tc main_arg0) := nw_hostOps0_main_arg0 (W0 m ρ c)
    _ = m ((c : Thread nD τ).loc main_arg0) := rfl

theorem at3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := nw_hostOps0_2_main_arg2 (W2 m ρ c)
    _ = W1 m ρ c (Proc.devRef .tc main_arg2) := nw_hostOps0_1_main_arg2 (W1 m ρ c)
    _ = W0 m ρ c (Proc.devRef .tc main_arg2) := nw_hostOps0_main_arg2 (W0 m ρ c)
    _ = m ((c : Thread nD τ).loc main_arg2) := rfl

theorem at4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := nw_hostOps0_2_main_arg3 (W2 m ρ c)
    _ = W1 m ρ c (Proc.devRef .tc main_arg3) := nw_hostOps0_1_main_arg3 (W1 m ρ c)
    _ = W0 m ρ c (Proc.devRef .tc main_arg3) := nw_hostOps0_main_arg3 (W0 m ρ c)
    _ = m ((c : Thread nD τ).loc main_arg3) := rfl

theorem at6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := nw_hostOps1_main_arg4 (W4 m ρ c)
    _ = W3 m ρ c (Proc.devRef .tc main_arg4) := W4_of_ne m ρ c main_arg4 (by decide)
    _ = W2 m ρ c (Proc.devRef .tc main_arg4) := nw_hostOps0_2_main_arg4 (W2 m ρ c)
    _ = W1 m ρ c (Proc.devRef .tc main_arg4) := nw_hostOps0_1_main_arg4 (W1 m ρ c)
    _ = W0 m ρ c (Proc.devRef .tc main_arg4) := nw_hostOps0_main_arg4 (W0 m ρ c)
    _ = m ((c : Thread nD τ).loc main_arg4) := rfl

theorem at7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := nw_hostOps1_main_arg5 (W4 m ρ c)
    _ = W3 m ρ c (Proc.devRef .tc main_arg5) := W4_of_ne m ρ c main_arg5 (by decide)
    _ = W2 m ρ c (Proc.devRef .tc main_arg5) := nw_hostOps0_2_main_arg5 (W2 m ρ c)
    _ = W1 m ρ c (Proc.devRef .tc main_arg5) := nw_hostOps0_1_main_arg5 (W1 m ρ c)
    _ = W0 m ρ c (Proc.devRef .tc main_arg5) := nw_hostOps0_main_arg5 (W0 m ρ c)
    _ = m ((c : Thread nD τ).loc main_arg5) := rfl

theorem at9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := nw_hostOps3_main_arg6 (W7 m ρ c)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := nw_hostOps1_main_arg6 (W4 m ρ c)
    _ = W3 m ρ c (Proc.devRef .tc main_arg6) := W4_of_ne m ρ c main_arg6 (by decide)
    _ = W2 m ρ c (Proc.devRef .tc main_arg6) := nw_hostOps0_2_main_arg6 (W2 m ρ c)
    _ = W1 m ρ c (Proc.devRef .tc main_arg6) := nw_hostOps0_1_main_arg6 (W1 m ρ c)
    _ = W0 m ρ c (Proc.devRef .tc main_arg6) := nw_hostOps0_main_arg6 (W0 m ρ c)
    _ = m ((c : Thread nD τ).loc main_arg6) := rfl

theorem at10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := nw_hostOps3_main_arg7 (W7 m ρ c)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := nw_hostOps1_main_arg7 (W4 m ρ c)
    _ = W3 m ρ c (Proc.devRef .tc main_arg7) := W4_of_ne m ρ c main_arg7 (by decide)
    _ = W2 m ρ c (Proc.devRef .tc main_arg7) := nw_hostOps0_2_main_arg7 (W2 m ρ c)
    _ = W1 m ρ c (Proc.devRef .tc main_arg7) := nw_hostOps0_1_main_arg7 (W1 m ρ c)
    _ = W0 m ρ c (Proc.devRef .tc main_arg7) := nw_hostOps0_main_arg7 (W0 m ρ c)
    _ = m ((c : Thread nD τ).loc main_arg7) := rfl

theorem at4_main_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem at7_main_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := nw_hostOps1_main_v3 (W4 m ρ c)
    _ = W3 m ρ c (Proc.devRef .tc main_v3) := W4_of_ne m ρ c main_v3 (by decide)

theorem at10_main_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := nw_hostOps3_main_v3 (W7 m ρ c)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := nw_hostOps1_main_v3 (W4 m ρ c)
    _ = W3 m ρ c (Proc.devRef .tc main_v3) := W4_of_ne m ρ c main_v3 (by decide)

theorem at4_main_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem at7_main_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := nw_hostOps1_main_v6 (W4 m ρ c)
    _ = W3 m ρ c (Proc.devRef .tc main_v6) := W4_of_ne m ρ c main_v6 (by decide)

theorem at10_main_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := nw_hostOps3_main_v6 (W7 m ρ c)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := nw_hostOps1_main_v6 (W4 m ρ c)
    _ = W3 m ρ c (Proc.devRef .tc main_v6) := W4_of_ne m ρ c main_v6 (by decide)

theorem at4_main_v31 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem at7_main_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := nw_hostOps1_main_v31 (W4 m ρ c)
    _ = W3 m ρ c (Proc.devRef .tc main_v31) := W4_of_ne m ρ c main_v31 (by decide)

theorem at10_main_v31 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := nw_hostOps3_main_v31 (W7 m ρ c)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := nw_hostOps1_main_v31 (W4 m ρ c)
    _ = W3 m ρ c (Proc.devRef .tc main_v31) := W4_of_ne m ρ c main_v31 (by decide)

end Cert.KernelIdeal.Keep

end
-- ==== Proof.KFold.lean ====
/-
  The kernel program's result as three layers.

  Read backwards from the result buffer: the last launch leaves the rectified sum of its two operands; the first of them is
  the aggregation the host operations before it computed from the previous launch's product and the edge data, the second the
  last bias as one row; that product is the previous launch's, of the second layer's output and the third weight; and so on
  down to the first launch, whose operands are the first two arguments. The edge data are what the opening host operations
  made of the edge array, unchanged since. Unfolding all of it, the result is the three-fold composition of one layer.
-/
import proofs.«164448_j16982300688514_1_alg».proof.Proof.KFoldA
import proofs.«164448_j16982300688514_1_alg».proof.Proof.KFoldB
import proofs.«164448_j16982300688514_1_alg».proof.Proof.KKeep

set_option maxRecDepth 16384
set_option maxHeartbeats 2000000

noncomputable section

namespace Cert.KernelIdeal.Fold

open Cert.KernelIdeal Cert.KernelIdeal.Gen Cert.KernelIdeal.Host Cert.KernelIdeal.Blocks Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The result -/

/-- The result buffer after the run holds the three layers of the argument arrays. -/
theorem result : W12 m ρ c (Proc.devRef .tc main_v79) = kernelOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [reg5, ev5_agg, ev5_row, reg4, reg3, ev3_agg, ev3_row, reg2, reg1, ev1_agg, ev1_row, reg0,
    at10_main_v3, at10_main_v6, at10_main_v31, at7_main_v3, at7_main_v6, at7_main_v31, at4_main_v3, at4_main_v6, at4_main_v31,
    at10_main_arg7, at9_main_arg6, at7_main_arg5, at6_main_arg4, at4_main_arg3, at3_main_arg2, at3_main_arg0,
    ev_src, ev_dst, ev_norm]
  rfl

end Cert.KernelIdeal.Fold

end
-- ==== Proof.RefRun.lean ====
/- The reference program's @main as the list of its host operations — the calls of its outlined functions
   unfolded at their call sites over the calls' buffer records — and its run read back: every weakly fair
   execution terminates with the result buffer at three layers of one composed term of the arguments' launch
   contents, the arguments unchanged. -/
import proofs.«164448_j16982300688514_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 165 operations, in order, the calls unfolded: `_where` is three (its scalar converted to its own
    type, broadcast, the select) into `main_call0`'s buffers; each `leaky_relu` is seven (the zero, its broadcast,
    the comparison, the slope converted to its own type, its broadcast, the product, `_where_0`'s select) into
    `main_call1`'s, `main_call2`'s and `main_call3`'s. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v15 : StableHlo.TRef sig ⟨S50000, .f32⟩) main_call0.v1 main_call0.v2 select,
    StableHlo.binary main_arg0 main_arg2 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v18 (broadcastInDim S850000 ![] bcast_S_S850000 : (⟨S_, .i32⟩ : BufTy).Contents (Elt F) → (⟨S850000, .i32⟩ : BufTy).Contents (Elt F)),
    StableHlo.binary main_v3 main_v18 main_v19 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v20 (broadcastInDim S850000 ![] bcast_S_S850000 : (⟨S_, .i32⟩ : BufTy).Contents (Elt F) → (⟨S850000, .i32⟩ : BufTy).Contents (Elt F)),
    StableHlo.binary main_v3 main_v20 main_v21 (addi : (⟨S850000, .i32⟩ : BufTy).Contents (Elt F) → (⟨S850000, .i32⟩ : BufTy).Contents (Elt F) → (⟨S850000, .i32⟩ : BufTy).Contents (Elt F)),
    StableHlo.ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v22 main_v23 (broadcastInDim S850000x1 ![0] bcast_S850000_S850000x1_0 : (⟨S850000, .i32⟩ : BufTy).Contents (Elt F) → (⟨S850000x1, .i32⟩ : BufTy).Contents (Elt F)),
    StableHlo.binary main_v16 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v27 (broadcastInDim S850000 ![] bcast_S_S850000 : (⟨S_, .i32⟩ : BufTy).Contents (Elt F) → (⟨S850000, .i32⟩ : BufTy).Contents (Elt F)),
    StableHlo.binary main_v6 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v17 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v48 : StableHlo.TRef sig ⟨S50000x128, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S50000x128 ![] bcast_S_S50000x128),
    StableHlo.TRef.binary main_call1.v3 (.of main_v48 : StableHlo.TRef sig ⟨S50000x128, .f32⟩) main_call1.v4 mulf,
    StableHlo.TRef.ternary main_call1.v1 (.of main_v48 : StableHlo.TRef sig ⟨S50000x128, .f32⟩) main_call1.v4 main_call1.call0.v0 select,
    StableHlo.binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v51 (broadcastInDim S850000 ![] bcast_S_S850000 : (⟨S_, .i32⟩ : BufTy).Contents (Elt F) → (⟨S850000, .i32⟩ : BufTy).Contents (Elt F)),
    StableHlo.binary main_v3 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v53 (broadcastInDim S850000 ![] bcast_S_S850000 : (⟨S_, .i32⟩ : BufTy).Contents (Elt F) → (⟨S850000, .i32⟩ : BufTy).Contents (Elt F)),
    StableHlo.binary main_v3 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v16 main_v56 main_v57 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_13 (constantI S_ 32 0#32),
    StableHlo.unary main_c_13 main_v58 (broadcastInDim S850000 ![] bcast_S_S850000 : (⟨S_, .i32⟩ : BufTy).Contents (Elt F) → (⟨S850000, .i32⟩ : BufTy).Contents (Elt F)),
    StableHlo.binary main_v6 main_v58 main_v59 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v60 (broadcastInDim S850000 ![] bcast_S_S850000 : (⟨S_, .i32⟩ : BufTy).Contents (Elt F) → (⟨S850000, .i32⟩ : BufTy).Contents (Elt F)),
    StableHlo.binary main_v6 main_v60 main_v61 (addi : (⟨S850000, .i32⟩ : BufTy).Contents (Elt F) → (⟨S850000, .i32⟩ : BufTy).Contents (Elt F) → (⟨S850000, .i32⟩ : BufTy).Contents (Elt F)),
    StableHlo.ternary main_v59 main_v61 main_v6 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v62 main_v63 (broadcastInDim S850000x1 ![0] bcast_S850000_S850000x1_0 : (⟨S850000, .i32⟩ : BufTy).Contents (Elt F) → (⟨S850000x1, .i32⟩ : BufTy).Contents (Elt F)),
    StableHlo.binary main_v16 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v57 main_v64 main_v65 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v66 (broadcastInDim S850000 ![] bcast_S_S850000 : (⟨S_, .i32⟩ : BufTy).Contents (Elt F) → (⟨S850000, .i32⟩ : BufTy).Contents (Elt F)),
    StableHlo.binary main_v3 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v68 (broadcastInDim S850000 ![] bcast_S_S850000 : (⟨S_, .i32⟩ : BufTy).Contents (Elt F) → (⟨S850000, .i32⟩ : BufTy).Contents (Elt F)),
    StableHlo.binary main_v3 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v50 main_v71 main_v72 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v65 main_v73 (broadcastInDim S850000x1 ![0] bcast_S850000_S850000x1_0 : (⟨S850000, .f32⟩ : BufTy).Contents (Elt F) → (⟨S850000x1, .f32⟩ : BufTy).Contents (Elt F)),
    StableHlo.unary main_v73 main_v74 (broadcastInDim S850000x128 ![0, 1] bcast_S850000x1_S850000x128_0_1 : (⟨S850000x1, .f32⟩ : BufTy).Contents (Elt F) → (⟨S850000x128, .f32⟩ : BufTy).Contents (Elt F)),
    StableHlo.binary main_v72 main_v74 main_v75 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v76 (broadcastInDim S50000x128 ![] bcast_S_S50000x128 : (⟨S_, .f32⟩ : BufTy).Contents (Elt F) → (⟨S50000x128, .f32⟩ : BufTy).Contents (Elt F)),
    StableHlo.unary main_v6 main_v77 (broadcastInDim S850000x1 ![0] bcast_S850000_S850000x1_0 : (⟨S850000, .i32⟩ : BufTy).Contents (Elt F) → (⟨S850000x1, .i32⟩ : BufTy).Contents (Elt F)),
    StableHlo.ternary main_v76 main_v77 main_v75 main_v78 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3C23D70A#32),
    StableHlo.TRef.nullary main_call2.cst (constant S_ .f32 0x00000000#32),
    StableHlo.TRef.unary main_call2.cst main_call2.v0 (broadcastInDim S50000x128 ![] bcast_S_S50000x128),
    StableHlo.TRef.binary (.of main_v81 : StableHlo.TRef sig ⟨S50000x128, .f32⟩) main_call2.v0 main_call2.v1 (cmpf .oge),
    StableHlo.TRef.unary (.of main_cst_18 : StableHlo.TRef sig ⟨S_, .f32⟩) main_call2.v2 id,
    StableHlo.TRef.unary main_call2.v2 main_call2.v3 (broadcastInDim S50000x128 ![] bcast_S_S50000x128),
    StableHlo.TRef.binary main_call2.v3 (.of main_v81 : StableHlo.TRef sig ⟨S50000x128, .f32⟩) main_call2.v4 mulf,
    StableHlo.TRef.ternary main_call2.v1 (.of main_v81 : StableHlo.TRef sig ⟨S50000x128, .f32⟩) main_call2.v4 main_call2.call0.v0 select,
    StableHlo.binary main_v82 main_arg6 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_19 (constantI S_ 32 0#32),
    StableHlo.unary main_c_19 main_v84 (broadcastInDim S850000 ![] bcast_S_S850000 : (⟨S_, .i32⟩ : BufTy).Contents (Elt F) → (⟨S850000, .i32⟩ : BufTy).Contents (Elt F)),
    StableHlo.binary main_v3 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v86 (broadcastInDim S850000 ![] bcast_S_S850000 : (⟨S_, .i32⟩ : BufTy).Contents (Elt F) → (⟨S850000, .i32⟩ : BufTy).Contents (Elt F)),
    StableHlo.binary main_v3 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v3 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v16 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_21 (constantI S_ 32 0#32),
    StableHlo.unary main_c_21 main_v91 (broadcastInDim S850000 ![] bcast_S_S850000 : (⟨S_, .i32⟩ : BufTy).Contents (Elt F) → (⟨S850000, .i32⟩ : BufTy).Contents (Elt F)),
    StableHlo.binary main_v6 main_v91 main_v92 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v93 (broadcastInDim S850000 ![] bcast_S_S850000 : (⟨S_, .i32⟩ : BufTy).Contents (Elt F) → (⟨S850000, .i32⟩ : BufTy).Contents (Elt F)),
    StableHlo.binary main_v6 main_v93 main_v94 (addi : (⟨S850000, .i32⟩ : BufTy).Contents (Elt F) → (⟨S850000, .i32⟩ : BufTy).Contents (Elt F) → (⟨S850000, .i32⟩ : BufTy).Contents (Elt F)),
    StableHlo.ternary main_v92 main_v94 main_v6 main_v95 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v95 main_v96 (broadcastInDim S850000x1 ![0] bcast_S850000_S850000x1_0 : (⟨S850000, .i32⟩ : BufTy).Contents (Elt F) → (⟨S850000x1, .i32⟩ : BufTy).Contents (Elt F)),
    StableHlo.binary main_v16 main_v96 main_v97 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v90 main_v97 main_v98 (mulf : (⟨S850000, .f32⟩ : BufTy).Contents (Elt F) → (⟨S850000, .f32⟩ : BufTy).Contents (Elt F) → (⟨S850000, .f32⟩ : BufTy).Contents (Elt F)),
    StableHlo.nullary main_c_23 (constantI S_ 32 0#32),
    StableHlo.unary main_c_23 main_v99 (broadcastInDim S850000 ![] bcast_S_S850000 : (⟨S_, .i32⟩ : BufTy).Contents (Elt F) → (⟨S850000, .i32⟩ : BufTy).Contents (Elt F)),
    StableHlo.binary main_v3 main_v99 main_v100 (cmpi .slt : (⟨S850000, .i32⟩ : BufTy).Contents (Elt F) → (⟨S850000, .i32⟩ : BufTy).Contents (Elt F) → (⟨S850000, .i1⟩ : BufTy).Contents (Elt F)),
    StableHlo.nullary main_c_24 (constantI S_ 32 50000#32),
    StableHlo.unary main_c_24 main_v101 (broadcastInDim S850000 ![] bcast_S_S850000 : (⟨S_, .i32⟩ : BufTy).Contents (Elt F) → (⟨S850000, .i32⟩ : BufTy).Contents (Elt F)),
    StableHlo.binary main_v3 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v83 main_v104 main_v105 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v98 main_v106 (broadcastInDim S850000x1 ![0] bcast_S850000_S850000x1_0 : (⟨S850000, .f32⟩ : BufTy).Contents (Elt F) → (⟨S850000x1, .f32⟩ : BufTy).Contents (Elt F)),
    StableHlo.unary main_v106 main_v107 (broadcastInDim S850000x128 ![0, 1] bcast_S850000x1_S850000x128_0_1 : (⟨S850000x1, .f32⟩ : BufTy).Contents (Elt F) → (⟨S850000x128, .f32⟩ : BufTy).Contents (Elt F)),
    StableHlo.binary main_v105 main_v107 main_v108 (mulf : (⟨S850000x128, .f32⟩ : BufTy).Contents (Elt F) → (⟨S850000x128, .f32⟩ : BufTy).Contents (Elt F) → (⟨S850000x128, .f32⟩ : BufTy).Contents (Elt F)),
    StableHlo.nullary main_cst_25 (constant S_ .f32 0x00000000#32),
    StableHlo.unary main_cst_25 main_v109 (broadcastInDim S50000x128 ![] bcast_S_S50000x128 : (⟨S_, .f32⟩ : BufTy).Contents (Elt F) → (⟨S50000x128, .f32⟩ : BufTy).Contents (Elt F)),
    StableHlo.unary main_v6 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v114 : StableHlo.TRef sig ⟨S50000x128, .f32⟩) main_call3.v0 main_call3.v1 (cmpf .oge),
    StableHlo.TRef.unary (.of main_cst_26 : StableHlo.TRef sig ⟨S_, .f32⟩) main_call3.v2 id,
    StableHlo.TRef.unary main_call3.v2 main_call3.v3 (broadcastInDim S50000x128 ![] bcast_S_S50000x128),
    StableHlo.TRef.binary main_call3.v3 (.of main_v114 : StableHlo.TRef sig ⟨S50000x128, .f32⟩) main_call3.v4 mulf,
    StableHlo.TRef.ternary main_call3.v1 (.of main_v114 : StableHlo.TRef sig ⟨S50000x128, .f32⟩) main_call3.v4 main_call3.call0.v0 select ]

-- 165 binds re-associated: the rewrite under the chain recurses once per statement
set_option maxRecDepth 8192 in
set_option maxHeartbeats 4000000 in
/-- @main is that straight line: its three windows and the functions' definitions unfolded at their calls, both
    sides are one chain of `hlo` steps once sequencing is reassociated. -/
theorem main_eq (c : Dev nD) : main (F := F) c = seq ops := by
  simp only [main, main_part0, main_part1, main_part2, fn_where.body, fn_leaky_relu.body, fn_where_0.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩

/-- One layer's aggregation as the operations print it, over the edge table `e` and the layer's features `h`:
    the two index vectors are each row of `e` followed by every node's own index (a self edge per node); the
    degree is the scatter-add of ones at the second vector; its inverse square root is selected where the degree
    is positive (zero elsewhere); an edge's norm is the product of that value gathered at its two ends; the
    features gathered at the first vector (a negative index wrapped by the node count) are scaled by the norm
    and scatter-added at the second. -/
def edgeAgg (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0
       (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))
    (mulf
       (Host.gather gather_S50000x128_S850000x1_S850000x128_1_0_n_n_0_1_1128 h
          (broadcastInDim S850000x1 ![0] bcast_S850000_S850000x1_0
             (select
                (cmpi .slt
                   (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0)
                   (broadcastInDim S850000 ![] bcast_S_S850000 (constantI S_ 32 0#32)))
                (addi
                   (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0)
                   (broadcastInDim S850000 ![] bcast_S_S850000 (constantI S_ 32 50000#32)))
                (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0))))
       (broadcastInDim S850000x128 ![0, 1] bcast_S850000x1_S850000x128_0_1
          (broadcastInDim S850000x1 ![0] bcast_S850000_S850000x1_0
             (mulf
                (Host.gather gather_S50000_S850000x1_S850000_n_0_n_n_0_1_1
                   (select
                      (cmpf .ogt
                         (Host.scatterAdd scatter_S50000_S850000x1_S850000_n_0_0_1
                            (broadcastInDim S50000 ![] bcast_S_S50000 (constant (F := F) S_ .f32 0x00000000#32))
                            (broadcastInDim S850000x1 ![0] bcast_S850000_S850000x1_0
                               (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))
                            (broadcastInDim S850000 ![] bcast_S_S850000 (constant (F := F) S_ .f32 0x3F800000#32)))
                         (broadcastInDim S50000 ![] bcast_S_S50000 (constant (F := F) S_ .f32 0x00000000#32)))
                      (Host.rsqrt
                         (maximumf
                            (Host.scatterAdd scatter_S50000_S850000x1_S850000_n_0_0_1
                               (broadcastInDim S50000 ![] bcast_S_S50000 (constant (F := F) S_ .f32 0x00000000#32))
                               (broadcastInDim S850000x1 ![0] bcast_S850000_S850000x1_0
                                  (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))
                               (broadcastInDim S850000 ![] bcast_S_S850000 (constant (F := F) S_ .f32 0x3F800000#32)))
                            (broadcastInDim S50000 ![] bcast_S_S50000 (constant (F := F) S_ .f32 0x3F800000#32))))
                      (broadcastInDim S50000 ![] bcast_S_S50000 (id (constant (F := F) S_ .f32 0x00000000#32))))
                   (broadcastInDim S850000x1 ![0] bcast_S850000_S850000x1_0
                      (select
                         (cmpi .slt
                            (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0)
                            (broadcastInDim S850000 ![] bcast_S_S850000 (constantI S_ 32 0#32)))
                         (addi
                            (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0)
                            (broadcastInDim S850000 ![] bcast_S_S850000 (constantI S_ 32 50000#32)))
                         (concatenate S850000 0 [⟨S800000, (shapeCast S800000 (extractStridedSlice S1x800000 ![0, 0] e slices_S2x800000_S1x800000_0_0) shapeCasts_S1x800000_S800000)⟩, ⟨S50000, (iotaInDim S50000 32 0)⟩] concatenates_S800000_S50000_S850000_d0))))
                (Host.gather gather_S50000_S850000x1_S850000_n_0_n_n_0_1_1
                   (select
                      (cmpf .ogt
                         (Host.scatterAdd scatter_S50000_S850000x1_S850000_n_0_0_1
                            (broadcastInDim S50000 ![] bcast_S_S50000 (constant (F := F) S_ .f32 0x00000000#32))
                            (broadcastInDim S850000x1 ![0] bcast_S850000_S850000x1_0
                               (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))
                            (broadcastInDim S850000 ![] bcast_S_S850000 (constant (F := F) S_ .f32 0x3F800000#32)))
                         (broadcastInDim S50000 ![] bcast_S_S50000 (constant (F := F) S_ .f32 0x00000000#32)))
                      (Host.rsqrt
                         (maximumf
                            (Host.scatterAdd scatter_S50000_S850000x1_S850000_n_0_0_1
                               (broadcastInDim S50000 ![] bcast_S_S50000 (constant (F := F) S_ .f32 0x00000000#32))
                               (broadcastInDim S850000x1 ![0] bcast_S850000_S850000x1_0
                                  (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))
                               (broadcastInDim S850000 ![] bcast_S_S850000 (constant (F := F) S_ .f32 0x3F800000#32)))
                            (broadcastInDim S50000 ![] bcast_S_S50000 (constant (F := F) S_ .f32 0x3F800000#32))))
                      (broadcastInDim S50000 ![] bcast_S_S50000 (id (constant (F := F) S_ .f32 0x00000000#32))))
                   (broadcastInDim S850000x1 ![0] bcast_S850000_S850000x1_0
                      (select
                         (cmpi .slt
                            (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0)
                            (broadcastInDim S850000 ![] bcast_S_S850000 (constantI S_ 32 0#32)))
                         (addi
                            (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0)
                            (broadcastInDim S850000 ![] bcast_S_S850000 (constantI S_ 32 50000#32)))
                         (concatenate S850000 0 [⟨S800000, (shapeCast S800000 (extractStridedSlice S1x800000 ![1, 0] e slices_S2x800000_S1x800000_1_0) shapeCasts_S1x800000_S800000)⟩, ⟨S50000, (iotaInDim S50000 32 0)⟩] concatenates_S800000_S50000_S850000_d0))))))))

/-- One layer: the aggregation of `h` times `W`, plus the bias broadcast along the rows, through the leaky
    rectifier (the argument where it is at least zero, the slope times the argument elsewhere). -/
def refLayer (e : (⟨S2x800000, .i32⟩ : BufTy).Contents (Elt F)) (h : (⟨S50000x128, .f32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  select
    (cmpf .oge
       (addf
          (edgeAgg e (Host.dotGeneral dot_S50000x128_S128x128_S50000x128_1_0_0_1_n_n none h W))
          (broadcastInDim S50000x128 ![0, 1] bcast_S1x128_S50000x128_0_1
             (broadcastInDim S1x128 ![1] bcast_S128_S1x128_1 b)))
       (broadcastInDim S50000x128 ![] bcast_S_S50000x128 (constant (F := F) S_ .f32 0x00000000#32)))
    (addf
       (edgeAgg e (Host.dotGeneral dot_S50000x128_S128x128_S50000x128_1_0_0_1_n_n none h W))
       (broadcastInDim S50000x128 ![0, 1] bcast_S1x128_S50000x128_0_1
          (broadcastInDim S1x128 ![1] bcast_S128_S1x128_1 b)))
    (mulf
       (broadcastInDim S50000x128 ![] bcast_S_S50000x128 (id (constant (F := F) S_ .f32 0x3C23D70A#32)))
       (addf
          (edgeAgg e (Host.dotGeneral dot_S50000x128_S128x128_S50000x128_1_0_0_1_n_n none h W))
          (broadcastInDim S50000x128 ![0, 1] bcast_S1x128_S50000x128_0_1
             (broadcastInDim S1x128 ![1] bcast_S128_S1x128_1 b))))

/-- The reference's result: three layers over the same edge table. -/
def refOut (x : (⟨S50000x128, .f32⟩ : BufTy).Contents (Elt F)) (e : (⟨S2x800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) :
    (⟨S50000x128, .f32⟩ : BufTy).Contents (Elt F) :=
  refLayer e (refLayer e (refLayer e x W1 b1) W2 b2) W3 b3

/-! ## The fold at the result and at the arguments

The heavy operations stay folded while the fold is read back: the equation never looks inside them. -/

attribute [local irreducible] Host.gather Host.scatterAdd Host.rsqrt concatenate iotaInDim broadcastInDim extractStridedSlice shapeCast select constant constantI cmpf cmpi addi addf mulf maximumf in
set_option maxRecDepth 16384 in
set_option maxHeartbeats 8000000 in
/-- The fold at the result buffer is `refOut` of the arguments' contents: each operation's result at its own
    buffer is its function's value, at any other buffer what was there; the typed references' casts are the
    identity at these literal references. -/
theorem out_eq (V : Valuation τ sig (Elt F)) :
    after ops V (main_v115 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v115).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.Bridge.lean ====
/-
  The two programs compute the same three layers.

  One layer of the reference is: the host's matrix product, the aggregation over the edges, the bias added along the rows,
  and the leaky rectifier spelled "the value where it is at least zero, the slope times the value elsewhere". One layer of the
  kernel program is: the launched product, the same aggregation, and the launched rectifier of the sum with the bias row,
  spelled "the value where it is positive, the slope times the value elsewhere". On the extended reals the two products are
  one sum over the contracted axis; the two aggregations are the same operations of the same edge array; the two layouts of
  the bias read the same entry; and the two rectifiers differ only at zero, where the slope times zero is zero.
-/
import proofs.«164448_j16982300688514_1_alg».proof.Proof.KFold
import proofs.«164448_j16982300688514_1_alg».proof.Proof.RefRun
import proofs.«164448_j16982300688514_1_alg».proof.Proof.LibMatDot
import proofs.«164448_j16982300688514_1_alg».proof.Proof.LibAsRow
import proofs.«164448_j16982300688514_1_alg».proof.Proof.LibSlabs
import Idealize.ShloMosaic.PureOps.Ideal.Laws
import Idealize.ShloMosaic.Lib.ValueIdx

set_option maxRecDepth 65536

noncomputable section

namespace Cert.Bridge

open Idealize.ShloMosaic Idealize.ShloMosaic.ValueIdx
open Cert.KernelIdeal Cert.KernelIdeal.Host Cert.KernelIdeal.Blocks Cert.KernelIdeal.Body Cert.KernelIdeal.Fold
open scoped BigOperators

/-- "At least zero" and "positive" select the same value of `v` and `s · v`: they disagree only at `v = 0`, where both
    branches are zero. -/
theorem select_ge_eq_gt (s v : EReal) :
    Scalar.select (Ideal.cmp .oge v 0) v (s * v) = Scalar.select (Ideal.cmp .ogt v 0) v (s * v) := by
  unfold Scalar.select Ideal.cmp
  by_cases h : v = 0
  · subst h; simp
  · have hlt : (0 : EReal) ≤ v ↔ 0 < v := ⟨fun h' => lt_of_le_of_ne h' (Ne.symm h), le_of_lt⟩
    simp [hlt]

/-- The reference's aggregation is the kernel program's, of the same edge data: the same operations of the edge array. -/
theorem agg_eq (e : (⟨S2x800000, .i32⟩ : BufTy).Contents (Elt Ideal)) (h : S50000x128.Idx → EReal) :
    Cert.ReferenceIdeal.RefRun.edgeAgg (F := Ideal) e h = aggK (F := Ideal) (srcK e) (dstK e) (normK e) h := rfl

/-- The host's matrix product is the sum over the contracted axis, entry by entry. -/
theorem dot_eq (h : FVec Ideal S50000x128 .f32) (W : FVec Ideal S128x128 .f32) :
    Host.dotGeneral (F := Ideal) Cert.ReferenceIdeal.dot_S50000x128_S128x128_S50000x128_1_0_0_1_n_n none h W = prod h W := by
  funext i
  obtain ⟨p, q, rfl⟩ : ∃ (p : Fin 50000) (q : Fin 128), i = ix2 p q := ⟨i 0, i 1, eq_ix2 i⟩
  exact Cert.Lib.dotGeneral_plain_apply (a := 50000) (K := 128) (b := 128)
    Cert.ReferenceIdeal.Facts₀.dot_S50000x128_S128x128_S50000x128_1_0_0_1_n_n_wf none _ h W p q

/-- The rectified sum at `(p, q)`: the rectifier of the array's entry plus the bias row's entry `q`. -/
theorem act_apply (X : S50000x128.Idx → EReal) (B : S1x128.Idx → EReal) (p : Fin 50000) (q : Fin 128) :
    act X B (ix2 p q) = leaky (X (ix2 p q) + B (ix2 (0 : Fin 1) q)) := rfl

/-- The reference's bias and rectifier of any array `A` — the bias spread along the rows, "at least zero" — is the kernel
    program's rectified sum of `A` with the bias as one row. -/
theorem rect_eq (A : FVec Ideal Cert.ReferenceIdeal.S50000x128 .f32) (b : (⟨S128, .f32⟩ : BufTy).Contents (Elt Ideal)) :
    select
      (cmpf .oge (addf A (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b)))
        (broadcastInDim Cert.ReferenceIdeal.S50000x128 ![] Cert.ReferenceIdeal.Gen.bcast_S_S50000x128 (constant (F := Ideal) Cert.ReferenceIdeal.S_ .f32 0x00000000#32)))
      (addf A (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b)))
      (mulf (broadcastInDim Cert.ReferenceIdeal.S50000x128 ![] Cert.ReferenceIdeal.Gen.bcast_S_S50000x128 (id (constant (F := Ideal) Cert.ReferenceIdeal.S_ .f32 0x3C23D70A#32)))
        (addf A (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b))))
    = act A (rowK (F := Ideal) b) := by
  funext i
  obtain ⟨p, q, rfl⟩ : ∃ (p : Fin 50000) (q : Fin 128), i = ix2 p q := ⟨i 0, i 1, eq_ix2 i⟩
  have hb : (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b)) (ix2 p q) = b (ix1 q) := by
    rw [Cert.Lib.rows_of_oneRow (R := 50000) (N := 128), Cert.Lib.broadcastInDim_eq_asRow (n := 128)]
    rfl
  have hr : rowK (F := Ideal) b (ix2 (0 : Fin 1) q) = b (ix1 q) := by
    unfold rowK
    rw [Cert.Lib.shapeCast_eq_asRow (n := 128)]
    rfl
  have hz : broadcastInDim Cert.ReferenceIdeal.S50000x128 ![] Cert.ReferenceIdeal.Gen.bcast_S_S50000x128 (constant (F := Ideal) Cert.ReferenceIdeal.S_ .f32 0x00000000#32) (ix2 p q)
      = Ideal.ofBits .f32 0x00000000#32 :=
    broadcastInDim_apply _ Cert.ReferenceIdeal.Gen.bcast_S_S50000x128 (constant (F := Ideal) Cert.ReferenceIdeal.S_ .f32 0x00000000#32) (ix2 p q) (fun a => a.elim0) (fun a => a.elim0)
  have hc : broadcastInDim Cert.ReferenceIdeal.S50000x128 ![] Cert.ReferenceIdeal.Gen.bcast_S_S50000x128 (constant (F := Ideal) Cert.ReferenceIdeal.S_ .f32 0x3C23D70A#32) (ix2 p q)
      = Ideal.ofBits .f32 0x3C23D70A#32 :=
    broadcastInDim_apply _ Cert.ReferenceIdeal.Gen.bcast_S_S50000x128 (constant (F := Ideal) Cert.ReferenceIdeal.S_ .f32 0x3C23D70A#32) (ix2 p q) (fun a => a.elim0) (fun a => a.elim0)
  rw [act_apply, hr]
  simp only [select_apply, cmpf_apply, addf_apply, mulf_apply, hb, id_eq, hz, hc]
  unfold leaky
  rw [Ideal.ofBits_zero_f32]
  exact select_ge_eq_gt _ _

/-- One layer of the reference is one layer of the kernel program. -/
theorem layer_eq (e : (⟨S2x800000, .i32⟩ : BufTy).Contents (Elt Ideal)) (h : S50000x128.Idx → EReal) (W : S128x128.Idx → EReal)
    (b : (⟨S128, .f32⟩ : BufTy).Contents (Elt Ideal)) :
    Cert.ReferenceIdeal.RefRun.refLayer (F := Ideal) e h W b = layerK e h W b := by
  unfold Cert.ReferenceIdeal.RefRun.refLayer layerK
  rw [dot_eq, agg_eq]
  exact rect_eq _ b

/-- The reference's result is the kernel program's: three layers each. -/
theorem out_eq (x : S50000x128.Idx → EReal) (e : (⟨S2x800000, .i32⟩ : BufTy).Contents (Elt Ideal))
    (W1 : S128x128.Idx → EReal) (b1 : (⟨S128, .f32⟩ : BufTy).Contents (Elt Ideal))
    (W2 : S128x128.Idx → EReal) (b2 : (⟨S128, .f32⟩ : BufTy).Contents (Elt Ideal))
    (W3 : S128x128.Idx → EReal) (b3 : (⟨S128, .f32⟩ : BufTy).Contents (Elt Ideal)) :
    Cert.ReferenceIdeal.RefRun.refOut (F := Ideal) x e W1 b1 W2 b2 W3 b3 = kernelOut x e W1 b1 W2 b2 W3 b3 := by
  unfold Cert.ReferenceIdeal.RefRun.refOut kernelOut
  rw [layer_eq, layer_eq, layer_eq]

end Cert.Bridge

end
-- ==== Proof.lean ====
/-
  Three graph-convolution layers — a dense product, a normalized aggregation over the edges with self loops, a bias and a leaky
  rectifier — computed two ways, are the same function of the node features, the edge array, the three weights and the three
  biases, on the extended reals.

  The kernel program launches the product and the bias-and-rectifier of every layer as kernels over blocks of 2000 rows and
  leaves the edge bookkeeping and the aggregation to host operations; the reference does everything in host operations. Both
  run to the end from any memory, nothing faulting, and leave the arguments unchanged: for the kernel program that is the
  generated frame of its twelve segments, for the reference the run of its operation list. For the values: the kernel
  program's result buffer, read back through its launches and host stretches, is three layers of the arguments
  (`Fold.result`); the reference's run ends at its own three layers (`RefRun.run`); and layer by layer the two agree
  (`Bridge.out_eq`): the launched product of a block of rows with the weight is the block of the whole product, which is the
  host's product; the aggregations are the same operations of the same edge array; and "positive" against "at least zero" in
  the rectifier only matters at zero, where the slope times zero is zero. No finiteness of the inputs is used. The
  idealization rewrote nothing, so there is nothing to preserve.
-/
import proofs.«164448_j16982300688514_1_alg».proof.Defs
import proofs.«164448_j16982300688514_1_alg».proof.Proof.Gen.Kernel
import proofs.«164448_j16982300688514_1_alg».proof.Proof.Gen.Kernel.Skeleton
import proofs.«164448_j16982300688514_1_alg».proof.Proof.Gen.Kernel.Launch
import proofs.«164448_j16982300688514_1_alg».proof.Proof.Gen.Kernel.Points
import proofs.«164448_j16982300688514_1_alg».proof.Proof.Gen.Kernel.Frame
import proofs.«164448_j16982300688514_1_alg».proof.Proof.Gen.KernelIdeal
import proofs.«164448_j16982300688514_1_alg».proof.Proof.Gen.KernelIdeal.Skeleton
import proofs.«164448_j16982300688514_1_alg».proof.Proof.Gen.KernelIdeal.Launch
import proofs.«164448_j16982300688514_1_alg».proof.Proof.Gen.KernelIdeal.Points
import proofs.«164448_j16982300688514_1_alg».proof.Proof.Gen.KernelIdeal.Frame
import proofs.«164448_j16982300688514_1_alg».proof.Proof.Gen.ReferenceIdeal
import proofs.«164448_j16982300688514_1_alg».proof.Proof.Gen.Pre_finite_inputs
import proofs.«164448_j16982300688514_1_alg».proof.Proof.KRun
import proofs.«164448_j16982300688514_1_alg».proof.Proof.KFold
import proofs.«164448_j16982300688514_1_alg».proof.Proof.RefRun
import proofs.«164448_j16982300688514_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs, from memories that agree on the arguments, end with the three layers of those arguments in their result
    buffers. -/
theorem algebraic : Cert.algebraic_KernelIdeal_ReferenceIdeal := by
  intro m ρ m' ρ' _ hagree
  refine ⟨fun c => Cert.KernelIdeal.Fold.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Fold.result m ρ c), (h c).2⟩)
      (Cert.KernelIdeal.KVal.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7⟩ := hagree c
    rw [h0, h1, h2, h3, h4, h5, h6, h7]
    exact Cert.Bridge.out_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
